-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S704512x64 : Shape := ⟨2, ![704512, 64]⟩
abbrev S704512 : Shape := ⟨1, ![704512]⟩
abbrev S11008 : Shape := ⟨1, ![11008]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S704512 : S_.BroadcastsInDim S704512 (![] : Fin 0 → Fin S704512.rank)
  reducesTo_S704512_S_d0 : S704512.ReducesTo [0] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S2x2048x4096 .f32) (main_arg1 : IVec S704512x64 32) (main_arg2 : FVec F S704512 .f32) (main_arg3 : IVec S704512x64 1) (main_arg4 : FVec F S11008 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S704512 .f32 := Host.absf main_arg2
  let main_cst_0 : FVec F S_ .f32 := constant S_ .f32 0x7F800000#32
  let main_v5 : FVec F S704512 .f32 := broadcastInDim S704512 ![] bcast_S_S704512 main_cst_0
  let main_v6 : IVec S704512 1 := cmpf .olt main_v4 main_v5
  let main_c_1 : IVec S_ 1 := constantI S_ 1 1#1
  let main_v7 : IVec S_ 1 := (fun x v => Host.reduce IntOp.andi x v reducesTo_S704512_S_d0 h_S_) main_v6 main_c_1
  let main_v8 : IVec S_ 1 := andi main_v3 main_v7
  let main_v9 : FVec F S11008 .f32 := Host.absf main_arg4
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S2x2048x4096 : Shape := ⟨3, ![2, 2048, 4096]⟩
abbrev S704512x64 : Shape := ⟨2, ![704512, 64]⟩
abbrev S704512 : Shape := ⟨1, ![704512]⟩
abbrev S11008 : Shape := ⟨1, ![11008]⟩
abbrev S4096x4096 : Shape := ⟨2, ![4096, 4096]⟩
abbrev S11008x4096 : Shape := ⟨2, ![11008, 4096]⟩
abbrev S11008x64 : Shape := ⟨2, ![11008, 64]⟩
abbrev S1x11008 : Shape := ⟨2, ![1, 11008]⟩
abbrev S4096x11008 : Shape := ⟨2, ![4096, 11008]⟩
abbrev S2x2048x11008 : Shape := ⟨3, ![2, 2048, 11008]⟩
abbrev S1024x4096 : Shape := ⟨2, ![1024, 4096]⟩
abbrev S256x4096 : Shape := ⟨2, ![256, 4096]⟩
abbrev S256x64 : Shape := ⟨2, ![256, 64]⟩
abbrev S1x256 : Shape := ⟨2, ![1, 256]⟩
abbrev S1024x256 : Shape := ⟨2, ![1024, 256]⟩
abbrev S1024x1024 : Shape := ⟨2, ![1024, 1024]⟩
abbrev S256x1024 : Shape := ⟨2, ![256, 1024]⟩
abbrev S256x16 : Shape := ⟨2, ![256, 16]⟩
abbrev S256x16x1 : Shape := ⟨3, ![256, 16, 1]⟩
abbrev S256x16x64 : Shape := ⟨3, ![256, 16, 64]⟩

abbrev nBuf : Space → Nat
  | .hbm => 14
  | .vmem => 12
  | .smem => 0
  | _ => 0

abbrev bufTy : (tb : Table) → Fin (tcTables nBuf tb) → BufTy
  | .hbm, ⟨0, _⟩ => ⟨S2x2048x4096, .f32⟩
  | .hbm, ⟨1, _⟩ => ⟨S704512x64, .i32⟩
  | .hbm, ⟨2, _⟩ => ⟨S704512, .f32⟩
  | .hbm, ⟨3, _⟩ => ⟨S704512x64, .i1⟩
  | .hbm, ⟨4, _⟩ => ⟨S11008, .f32⟩
  | .hbm, ⟨5, _⟩ => ⟨S4096x4096, .f32⟩
  | .hbm, ⟨6, _⟩ => ⟨S4096x4096, .bf16⟩
  | .hbm, ⟨7, _⟩ => ⟨S11008x4096, .i32⟩
  | .hbm, ⟨8, _⟩ => ⟨S11008x4096, .i1⟩
  | .hbm, ⟨9, _⟩ => ⟨S11008x64, .f32⟩
  | .hbm, ⟨10, _⟩ => ⟨S1x11008, .f32⟩
  | .hbm, ⟨11, _⟩ => ⟨S11008x4096, .i32⟩
  | .hbm, ⟨12, _⟩ => ⟨S4096x11008, .f32⟩
  | .hbm, ⟨13, _⟩ => ⟨S2x2048x11008, .f32⟩
  | .local _ .vmem, ⟨0, _⟩ => ⟨S1024x4096, .bf16⟩
  | .local _ .vmem, ⟨1, _⟩ => ⟨S1024x4096, .bf16⟩
  | .local _ .vmem, ⟨2, _⟩ => ⟨S256x4096, .i32⟩
  | .local _ .vmem, ⟨3, _⟩ => ⟨S256x4096, .i32⟩
  | .local _ .vmem, ⟨4, _⟩ => ⟨S256x4096, .i32⟩
  | .local _ .vmem, ⟨5, _⟩ => ⟨S256x4096, .i32⟩
  | .local _ .vmem, ⟨6, _⟩ => ⟨S256x64, .f32⟩
  | .local _ .vmem, ⟨7, _⟩ => ⟨S256x64, .f32⟩
  | .local _ .vmem, ⟨8, _⟩ => ⟨S1x256, .f32⟩
  | .local _ .vmem, ⟨9, _⟩ => ⟨S1x256, .f32⟩
  | .local _ .vmem, ⟨10, _⟩ => ⟨S1024x256, .f32⟩
  | .local _ .vmem, ⟨11, _⟩ => ⟨S1024x256, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x4096 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S2x2048x4096_S4096x4096 : S2x2048x4096.ShapeCasts S4096x4096
  bitsLt_bf16_f32 : FTy.bits .bf16 < FTy.bits .f32
  shapeCasts_S704512x64_S11008x4096 : S704512x64.ShapeCasts S11008x4096
  shapeCasts_S704512_S11008x64 : S704512.ShapeCasts S11008x64
  shapeCasts_S11008_S1x11008 : S11008.ShapeCasts S1x11008
  natLt_1_32 : 1 < 32
  shapeCasts_S4096x11008_S2x2048x11008 : S4096x11008.ShapeCasts S2x2048x11008
  inb_S1024x4096_S1024x1024_0_0 : ∀ a, (![0, 0] : Fin 2 → Nat) a + S1024x1024.size a ≤ S1024x4096.size a
  h_S1024x1024 : 0 < S1024x1024.numel
  shapeCasts_S1024x1024_S1024x1024 : S1024x1024.ShapeCasts S1024x1024
  inb_S256x4096_S256x1024_0_0 : ∀ a, (![0, 0] : Fin 2 → Nat) a + S256x1024.size a ≤ S256x4096.size a
  h_S256x1024 : 0 < S256x1024.numel
  shapeCasts_S256x1024_S256x1024 : S256x1024.ShapeCasts S256x1024
  inb_S256x64_S256x16_0_0 : ∀ a, (![0, 0] : Fin 2 → Nat) a + S256x16.size a ≤ S256x64.size a
  h_S256x16 : 0 < S256x16.numel
  shapeCasts_S256x16_S256x16 : S256x16.ShapeCasts S256x16
  shapeCasts_S256x16_S256x16x1 : S256x16.ShapeCasts S256x16x1
  shapeCasts_S256x16x1_S256x16x1 : S256x16x1.ShapeCasts S256x16x1
  broadcasts_S256x16x1_S256x16x64 : S256x16x1.Broadcasts S256x16x64
  shapeCasts_S256x16x64_S256x1024 : S256x16x64.ShapeCasts S256x1024
  inb_S1024x4096_S1024x1024_0_1024 : ∀ a, (![0, 1024] : Fin 2 → Nat) a + S1024x1024.size a ≤ S1024x4096.size a
  inb_S256x4096_S256x1024_0_1024 : ∀ a, (![0, 1024] : Fin 2 → Nat) a + S256x1024.size a ≤ S256x4096.size a
  inb_S256x64_S256x16_0_16 : ∀ a, (![0, 16] : Fin 2 → Nat) a + S256x16.size a ≤ S256x64.size a
  inb_S1024x4096_S1024x1024_0_2048 : ∀ a, (![0, 2048] : Fin 2 → Nat) a + S1024x1024.size a ≤ S1024x4096.size a
  inb_S256x4096_S256x1024_0_2048 : ∀ a, (![0, 2048] : Fin 2 → Nat) a + S256x1024.size a ≤ S256x4096.size a
  inb_S256x64_S256x16_0_32 : ∀ a, (![0, 32] : Fin 2 → Nat) a + S256x16.size a ≤ S256x64.size a
  inb_S1024x4096_S1024x1024_0_3072 : ∀ a, (![0, 3072] : Fin 2 → Nat) a + S1024x1024.size a ≤ S1024x4096.size a
  inb_S256x4096_S256x1024_0_3072 : ∀ a, (![0, 3072] : Fin 2 → Nat) a + S256x1024.size a ≤ S256x4096.size a
  inb_S256x64_S256x16_0_48 : ∀ a, (![0, 48] : Fin 2 → Nat) a + S256x16.size a ≤ S256x64.size a
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  dot_S1024x1024_S256x1024_S1024x256_1_1_0_0_n_n_wf : DotDims.WF S1024x1024 S256x1024 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S4096x4096.size a
  hwx0_0 : ∀ i : grid0.Coords, EltTy.bits .bf16 = 32 ∨ (Rect.block (s := S4096x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .i32 = 32 ∨ (Rect.block (s := S11008x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S11008x4096.size a
  hwx0_2 : ∀ i : grid0.Coords, EltTy.bits .i32 = 32 ∨ (Rect.block (s := S11008x4096) S256x4096.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S11008x64.size a
  hwx0_3 : ∀ i : grid0.Coords, EltTy.bits .f32 = 32 ∨ (Rect.block (s := S11008x64) S256x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x11008.size a
  hwx0_4 : ∀ i : grid0.Coords, EltTy.bits .f32 = 32 ∨ (Rect.block (s := S1x11008) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S4096x11008.size a
  hwx0_5 : ∀ i : grid0.Coords, EltTy.bits .f32 = 32 ∨ (Rect.block (s := S4096x11008) S1024x256.size (cc0_transform_5 i) (hinb0_5 i)).WholeWords (EltTy.packing .f32)

variable [Facts₀]

def dot_S1024x1024_S256x1024_S1024x256_1_1_0_0_n_n : DotDims S1024x1024 S256x1024 S1024x256 where
  lhsContracting := [1]
  rhsContracting := [1]
  lhsNonContracting := [0]
  rhsNonContracting := [0]
  lhsBatch := []
  rhsBatch := []
  wf := dot_S1024x1024_S256x1024_S1024x256_1_1_0_0_n_n_wf

abbrev win0_0 : Pipeline.Window sig grid0 :=
  Pipeline.Window.ofSpec (Memref.whole main_call0_v1) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v2) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v6) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v4) S256x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v5) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v7) S1024x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x2048x4096 : Shape := ⟨3, ![2, 2048, 4096]⟩
abbrev S704512x64 : Shape := ⟨2, ![704512, 64]⟩
abbrev S704512 : Shape := ⟨1, ![704512]⟩
abbrev S11008 : Shape := ⟨1, ![11008]⟩
abbrev S704512x1 : Shape := ⟨2, ![704512, 1]⟩
abbrev S_ : Shape := ⟨0, ![]⟩
abbrev S11008x4096 : Shape := ⟨2, ![11008, 4096]⟩
abbrev S2x2048x11008 : Shape := ⟨3, ![2, 2048, 11008]⟩
abbrev S1x1x11008 : Shape := ⟨3, ![1, 1, 11008]⟩

abbrev nBuf : Space → Nat
  | .hbm => 24
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S704512x64, .i32⟩
  | .hbm, ⟨2, _⟩ => ⟨S704512, .f32⟩
  | .hbm, ⟨3, _⟩ => ⟨S704512x64, .i1⟩
  | .hbm, ⟨4, _⟩ => ⟨S11008, .f32⟩
  | .hbm, ⟨5, _⟩ => ⟨S704512x1, .f32⟩
  | .hbm, ⟨6, _⟩ => ⟨S704512x64, .f32⟩
  | .hbm, ⟨7, _⟩ => ⟨S_, .f32⟩
  | .hbm, ⟨8, _⟩ => ⟨S704512x64, .f32⟩
  | .hbm, ⟨9, _⟩ => ⟨S704512x64, .f32⟩
  | .hbm, ⟨10, _⟩ => ⟨S_, .f32⟩
  | .hbm, ⟨11, _⟩ => ⟨S704512x64, .f32⟩
  | .hbm, ⟨12, _⟩ => ⟨S704512x64, .f32⟩
  | .hbm, ⟨13, _⟩ => ⟨S704512x64, .f32⟩
  | .hbm, ⟨14, _⟩ => ⟨S704512x64, .f32⟩
  | .hbm, ⟨15, _⟩ => ⟨S_, .f32⟩
  | .hbm, ⟨16, _⟩ => ⟨S_, .f32⟩
  | .hbm, ⟨17, _⟩ => ⟨S704512x64, .f32⟩
  | .hbm, ⟨18, _⟩ => ⟨S704512x64, .f32⟩
  | .hbm, ⟨19, _⟩ => ⟨S11008x4096, .f32⟩
  | .hbm, ⟨20, _⟩ => ⟨S2x2048x11008, .f32⟩
  | .hbm, ⟨21, _⟩ => ⟨S1x1x11008, .f32⟩
  | .hbm, ⟨22, _⟩ => ⟨S2x2048x11008, .f32⟩
  | .hbm, ⟨23, _⟩ => ⟨S2x2048x11008, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]

class Facts₀ : Prop where
  bcast_S704512_S704512x1_0 : S704512.BroadcastsInDim S704512x1 (![0] : Fin 1 → Fin S704512x1.rank)
  bcast_S_S704512x64 : S_.BroadcastsInDim S704512x64 (![] : Fin 0 → Fin S704512x64.rank)
  bcast_S704512x1_S704512x64_0_1 : S704512x1.BroadcastsInDim S704512x64 (![0, 1] : Fin 2 → Fin S704512x64.rank)
  shapeCasts_S704512x64_S11008x4096 : S704512x64.ShapeCasts S11008x4096
  bcast_S11008_S1x1x11008_2 : S11008.BroadcastsInDim S1x1x11008 (![2] : Fin 1 → Fin S1x1x11008.rank)
  bcast_S1x1x11008_S2x2048x11008_0_1_2 : S1x1x11008.BroadcastsInDim S2x2048x11008 (![0, 1, 2] : Fin 3 → Fin S2x2048x11008.rank)
  dot_S2x2048x4096_S11008x4096_S2x2048x11008_2_1_01_0_n_n_wf : DotDims.WF S2x2048x4096 S11008x4096 S2x2048x11008 [2] [1] [0, 1] [0] [] []

variable [Facts₀]

def dot_S2x2048x4096_S11008x4096_S2x2048x11008_2_1_01_0_n_n : DotDims S2x2048x4096 S11008x4096 S2x2048x11008 where
  lhsContracting := [2]
  rhsContracting := [1]
  lhsNonContracting := [0, 1]
  rhsNonContracting := [0]
  lhsBatch := []
  rhsBatch := []
  wf := dot_S2x2048x4096_S11008x4096_S2x2048x11008_2_1_01_0_n_n_wf

class Facts : Prop extends Facts₀ where

variable [Facts]
-- ==== Proof.Spec.lean ====
/-
  The linear layer with dequantised weights, as one function of the five argument arrays, read on the extended reals.

  The weights arrive as 704512 groups of 64 three-bit codes, one scale per group and one sparsity bit per code.
  Laid out row-major as an [11008, 4096] matrix, entry (o, k) of the matrix is code number `o * 4096 + k`: it lies
  in group `(o * 4096 + k) / 64` at lane `(o * 4096 + k) % 64`. A code `q` with scale `s` stands for
  `(q * c - 1) * s`, with `c` the single-precision word nearest to 2/7, and for zero where the sparsity bit is set.
  The layer's output at (a, r, o) is the sum over k of `x (a, r, k)` times weight (o, k), plus `bias o`.
-/
import Idealize.ShloMosaic.PureOps.Ideal
import Idealize.ShloMosaic.Lib.ValueIdx

noncomputable section

open scoped BigOperators

namespace Cert.Dequant

open Idealize.ShloMosaic Idealize.ShloMosaic.ValueIdx

/-- One dequantised weight: zero where the sparsity bit is set, else `(q * c - 1) * s`. -/
def weight (q : BitVec 32) (b : BitVec 1) (s : EReal) : EReal :=
  Scalar.select b (Ideal.ofBits .f32 0x00000000#32)
    ((FloatOps.sitofp (F := Ideal) .f32 q * Ideal.ofBits .f32 0x3E924925#32 - Ideal.ofBits .f32 0x3F800000#32) * s)

/-- The group that holds entry (o, k) of the weight matrix. -/
abbrev grp (o : Fin 11008) (k : Fin 4096) : Fin 704512 :=
  ⟨(o.val * 4096 + k.val) / 64, by have := o.isLt; have := k.isLt; omega⟩

/-- The lane of entry (o, k) inside its group. -/
abbrev lane (o : Fin 11008) (k : Fin 4096) : Fin 64 :=
  ⟨(o.val * 4096 + k.val) % 64, Nat.mod_lt _ (by decide)⟩

/-- Entry (o, k) of the dequantised weight matrix, from the codes, the scales and the sparsity bits. -/
def wmat (q : (⟨2, ![704512, 64]⟩ : Shape).Idx → BitVec 32) (s : (⟨1, ![704512]⟩ : Shape).Idx → EReal)
    (mk : (⟨2, ![704512, 64]⟩ : Shape).Idx → BitVec 1) (o : Fin 11008) (k : Fin 4096) : EReal :=
  weight (q (ix2 (grp o k) (lane o k))) (mk (ix2 (grp o k) (lane o k))) (s (ix1 (grp o k)))

/-- The layer's output at batch `a`, row `r`, feature `o`. -/
def outAt (x : (⟨3, ![2, 2048, 4096]⟩ : Shape).Idx → EReal) (q : (⟨2, ![704512, 64]⟩ : Shape).Idx → BitVec 32)
    (s : (⟨1, ![704512]⟩ : Shape).Idx → EReal) (mk : (⟨2, ![704512, 64]⟩ : Shape).Idx → BitVec 1)
    (bias : (⟨1, ![11008]⟩ : Shape).Idx → EReal) (a : Fin 2) (r : Fin 2048) (o : Fin 11008) : EReal :=
  (∑ k : Fin 4096, x (ix3 a r k) * wmat q s mk o k) + bias (ix1 o)

/-- The layer's output as an array. -/
def out (x : (⟨3, ![2, 2048, 4096]⟩ : Shape).Idx → EReal) (q : (⟨2, ![704512, 64]⟩ : Shape).Idx → BitVec 32)
    (s : (⟨1, ![704512]⟩ : Shape).Idx → EReal) (mk : (⟨2, ![704512, 64]⟩ : Shape).Idx → BitVec 1)
    (bias : (⟨1, ![11008]⟩ : Shape).Idx → EReal) : (⟨3, ![2, 2048, 11008]⟩ : Shape).Idx → EReal :=
  fun i => outAt x q s mk bias (i 0) (i 1) (i 2)

end Cert.Dequant

end
-- ==== Proof.RefValue.lean ====
/-
  The reference computes the layer's output: its dequantised [704512, 64] table, reshaped row-major to
  [11008, 4096], holds at (o, k) the weight of code number `o * 4096 + k`; its contraction of `x` with that matrix
  over the last axis of each, plus the bias broadcast along the first two axes, is `Cert.Dequant.out` index by index.
-/
import proofs.«137826_j5858335392490_1_alg».proof.Proof.Gen.ReferenceIdeal.Read
import proofs.«137826_j5858335392490_1_alg».proof.Proof.Spec

noncomputable section

open scoped BigOperators

namespace Cert.ReferenceIdeal.RefValue

open Cert.ReferenceIdeal Cert.ReferenceIdeal.Read Idealize.ShloMosaic Idealize.ShloMosaic.ValueIdx Cert.Dequant

/-- The left operand's index at output index `i` and contraction coordinate `k`. -/
theorem lidx_eq (a : Fin 2) (r : Fin 2048) (o : Fin 11008) (k : Fin 4096) : lidx_main_v10 (ix3 a r o) k = ix3 a r k :=
  funext fun a => by match a with | ⟨0, _⟩ => rfl | ⟨1, _⟩ => rfl | ⟨2, _⟩ => rfl

/-- The reshaped table read at (o, k) is the table at the group and lane of code number `o * 4096 + k`. -/
theorem widx_eq (a : Fin 2) (r : Fin 2048) (o : Fin 11008) (k : Fin 4096) :
    idx_main_v9 (ridx_main_v10 (ix3 a r o) k) = ix2 (grp o k) (lane o k) :=
  funext fun a => by match a with | ⟨0, _⟩ => rfl | ⟨1, _⟩ => rfl

/-- The scale column broadcast along the lanes reads the group's scale. -/
theorem sidx_eq (o : Fin 11008) (k : Fin 4096) :
    idx_main_v0 (idx_main_v6 (ix2 (grp o k) (lane o k))) = ix1 (grp o k) :=
  funext fun a => by match a with | ⟨0, _⟩ => rfl

/-- The bias broadcast along batch and row reads the feature's bias. -/
theorem bidx_eq (a : Fin 2) (r : Fin 2048) (o : Fin 11008) : idx_main_v11 (idx_main_v12 (ix3 a r o)) = ix1 o :=
  funext fun a => by match a with | ⟨0, _⟩ => rfl

/-- The reference's last stage is the layer's output. -/
theorem ref_eq (x0 : (⟨S2x2048x4096, .f32⟩ : BufTy).Contents (Elt Ideal)) (x1 : (⟨S704512x64, .i32⟩ : BufTy).Contents (Elt Ideal))
    (x2 : (⟨S704512, .f32⟩ : BufTy).Contents (Elt Ideal)) (x3 : (⟨S704512x64, .i1⟩ : BufTy).Contents (Elt Ideal))
    (x4 : (⟨S11008, .f32⟩ : BufTy).Contents (Elt Ideal)) :
    val_main_v13 (F := Ideal) x0 x1 x2 x3 x4 = out x0 x1 x2 x3 x4 := by
  funext i
  obtain ⟨a, r, o, rfl⟩ : ∃ (a : Fin 2) (r : Fin 2048) (o : Fin 11008), i = ix3 a r o := ⟨i 0, i 1, i 2, eq_ix3 i⟩
  rw [val_main_v13_apply, val_main_v10_apply, val_main_v12_apply, val_main_v11_apply, bidx_eq]
  show (∑ k : Fin 4096, _) + _ = (∑ k : Fin 4096, _) + _
  refine congrArg (· + x4 (ix1 o)) (Finset.sum_congr rfl fun k _ => ?_)
  rw [lidx_eq, val_main_v9_apply, widx_eq, val_main_v8_apply, val_main_v7_apply, val_main_v6_apply, val_main_v0_apply,
    sidx_eq, val_main_v5_apply, val_main_v3_apply, val_main_v1_apply, val_main_v2_apply, val_main_cst_apply,
    val_main_v4_apply, val_main_cst_0_apply, val_main_call0_v1_apply, val_main_call0_v0_apply, val_main_cst_1_apply]
  rfl

end Cert.ReferenceIdeal.RefValue

end
-- ==== Proof.Payload.lean ====
/-
  What the kernel body computes from the pieces it loads, read at one entry of the [1024, 256] output tile.

  The body walks the 4096 input features in four runs of 1024. For each run it builds a [256, 1024] tile of
  dequantised weights — the code times `c`, minus one, times the group's scale (each of a row's 16 scales in the run
  spread over its 64 lanes), zero where the sparsity word is not zero — and contracts it with the run's [1024, 1024]
  tile of `x` over the feature axis of both; the four products are added one after another onto zero, then the bias row
  is added to every row. At entry (p, r) this is: the four runs' sums of `x (p, k) * weight (r, k)`, added left to
  right onto zero, plus the bias at `r`.
-/
import proofs.«137826_j5858335392490_1_alg».proof.Proof.Gen.KernelIdeal.Skeleton
import proofs.«137826_j5858335392490_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Tile

open Cert.KernelIdeal Cert.KernelIdeal.Gen Idealize.ShloMosaic Idealize.ShloMosaic.ValueIdx Cert.Dequant

/-- The dimension numbers of the body's four products: [1024, 1024] against [256, 1024], the last axis of each contracted. -/
abbrev DD : DotDims S1024x1024 S256x1024 S1024x256 := dot_S1024x1024_S256x1024_S1024x256_1_1_0_0_n_n

theorem lhs_row (j : S1024x256.Idx) (k : DD.contr.Idx) : (DD.lhsIdx j k 0).val = (j 0).val := by
  unfold DotDims.lhsIdx
  rw [dif_neg (show ¬(0 : Fin S1024x1024.rank) ∈ DD.lhsBatch by decide), dif_pos (show (0 : Fin S1024x1024.rank) ∈ DD.lhsNonContracting by decide)]
  rfl

theorem rhs_row (j : S1024x256.Idx) (k : DD.contr.Idx) : (DD.rhsIdx j k 0).val = (j 1).val := by
  unfold DotDims.rhsIdx
  rw [dif_neg (show ¬(0 : Fin S256x1024.rank) ∈ DD.rhsBatch by decide), dif_pos (show (0 : Fin S256x1024.rank) ∈ DD.rhsNonContracting by decide)]
  rfl

/-- A product into the zero accumulator, at entry (p, r): row `p` of the left tile against row `r` of the right tile. -/
theorem product_at (l : FVec Ideal S1024x1024 .bf16) (w : FVec Ideal S256x1024 .bf16) (p : Fin 1024) (r : Fin 256) :
    matmul DD none l w (constant S1024x256 .f32 0x00000000#32) (ix2 p r) = ∑ k : Fin 1024, l (ix2 p k) * w (ix2 r k) := by
  simp only [matmul]
  rw [Ideal.matmul_constant_zero_apply, ← Equiv.sum_comp (contrEquiv1 DD 1024 rfl rfl).symm]
  refine Finset.sum_congr rfl fun k _ => ?_
  have hk := contrEquiv1_symm_val DD 1024 rfl rfl k
  have el : DD.lhsIdx (ix2 p r) ((contrEquiv1 DD 1024 rfl rfl).symm k) = ix2 p k := funext fun a => Fin.ext (by
    match a with
    | ⟨0, _⟩ => exact lhs_row _ _
    | ⟨1, _⟩ => exact (DD.lhsIdx_val_of_single rfl _ _).trans hk)
  have er : DD.rhsIdx (ix2 p r) ((contrEquiv1 DD 1024 rfl rfl).symm k) = ix2 r k := funext fun a => Fin.ext (by
    match a with
    | ⟨0, _⟩ => exact rhs_row _ _
    | ⟨1, _⟩ => exact (DD.rhsIdx_val_of_single rfl _ _).trans hk)
  rw [el, er]

/-- A run's 16 scales per row spread over the run's 1024 lanes: lane `k` reads scale `k / 64`. -/
theorem scales_at (s : Vec Ideal S256x16 .f32) (r : Fin 256) (k : Fin 1024) :
    shapeCast S256x1024 (broadcastTo S256x16x64 (shapeCast S256x16x1 (shapeCast S256x16x1 (shapeCast S256x16 s shapeCasts_S256x16_S256x16)
      shapeCasts_S256x16_S256x16x1) shapeCasts_S256x16x1_S256x16x1) broadcasts_S256x16x1_S256x16x64) shapeCasts_S256x16x64_S256x1024 (ix2 r k)
      = s (ix2 r (⟨k.val / 64, by have := k.isLt; omega⟩ : Fin 16)) := by
  have hk := k.isLt
  refine (shapeCast_apply _ shapeCasts_S256x16x64_S256x1024 (ix2 r k)
    (ix3 r (⟨k.val / 64, by omega⟩ : Fin 16) (⟨k.val % 64, Nat.mod_lt _ (by decide)⟩ : Fin 64)) (by
      rw [Shape.rowMajor_val_three, Shape.rowMajor_val_two]
      show (r.val * 16 + k.val / 64) * 64 + k.val % 64 = r.val * 1024 + k.val
      omega)).trans ?_
  refine (broadcastTo_apply _ broadcasts_S256x16x1_S256x16x64 _ (ix3 r (⟨k.val / 64, by omega⟩ : Fin 16) (0 : Fin 1)) (fun a => by
    match a with
    | ⟨0, _⟩ => show r.val = if (256 : Nat) = 1 then 0 else r.val; rw [if_neg (by decide)]
    | ⟨1, _⟩ => show k.val / 64 = if (16 : Nat) = 1 then 0 else k.val / 64; rw [if_neg (by decide)]
    | ⟨2, _⟩ => show 0 = if (1 : Nat) = 1 then 0 else k.val % 64; rw [if_pos rfl])).trans ?_
  rw [shapeCast_self]
  refine (shapeCast_apply _ shapeCasts_S256x16_S256x16x1 _ (ix2 r (⟨k.val / 64, by omega⟩ : Fin 16)) (by
      rw [Shape.rowMajor_val_three, Shape.rowMajor_val_two]
      show r.val * 16 + k.val / 64 = (r.val * 16 + k.val / 64) * 1 + 0
      omega)).trans ?_
  rw [shapeCast_self]

/-- One run's tile of dequantised weights, from the run's codes, sparsity words and scales as loaded. -/
def wtile (q m : Vec Ideal S256x1024 .i32) (s : Vec Ideal S256x16 .f32) : FVec Ideal S256x1024 .bf16 :=
  truncf .bf16 (select (cmpi .ne (shapeCast S256x1024 m shapeCasts_S256x1024_S256x1024) (constantI S256x1024 32 0#32))
    (broadcast S256x1024 (Scalar.ofBits .f32 0x00000000#32))
    (mulf (subf (mulf (sitofp .f32 (shapeCast S256x1024 q shapeCasts_S256x1024_S256x1024)) (broadcast S256x1024 (Scalar.ofBits .f32 0x3E924925#32)))
        (broadcast S256x1024 (Scalar.ofBits .f32 0x3F800000#32)))
      (shapeCast S256x1024 (broadcastTo S256x16x64 (shapeCast S256x16x1 (shapeCast S256x16x1 (shapeCast S256x16 s shapeCasts_S256x16_S256x16)
        shapeCasts_S256x16_S256x16x1) shapeCasts_S256x16x1_S256x16x1) broadcasts_S256x16x1_S256x16x64) shapeCasts_S256x16x64_S256x1024)))
    bitsLt_bf16_f32

/-- The tile at (r, k): the weight of the code, its sparsity word compared with zero, and scale `k / 64` of the row. -/
theorem wtile_at (q m : Vec Ideal S256x1024 .i32) (s : Vec Ideal S256x16 .f32) (r : Fin 256) (k : Fin 1024) :
    wtile q m s (ix2 r k)
      = weight (q (ix2 r k)) (IntOp.cmpi .ne (m (ix2 r k)) 0#32) (s (ix2 r (⟨k.val / 64, by have := k.isLt; omega⟩ : Fin 16))) := by
  unfold wtile weight
  show Scalar.select (IntOp.cmpi .ne (shapeCast S256x1024 m shapeCasts_S256x1024_S256x1024 (ix2 r k)) 0#32) (Ideal.ofBits .f32 0x00000000#32)
      ((FloatOps.sitofp (F := Ideal) .f32 (shapeCast S256x1024 q shapeCasts_S256x1024_S256x1024 (ix2 r k)) * Ideal.ofBits .f32 0x3E924925#32
        - Ideal.ofBits .f32 0x3F800000#32) * _) = _
  rw [scales_at, shapeCast_self, shapeCast_self]

/-- One run's product: the run's tile of `x` against the run's tile of weights. -/
def run (a : Vec Ideal S1024x1024 .bf16) (q m : Vec Ideal S256x1024 .i32) (s : Vec Ideal S256x16 .f32) : FVec Ideal S1024x256 .f32 :=
  matmul DD none (shapeCast S1024x1024 a shapeCasts_S1024x1024_S1024x1024 : FVec Ideal S1024x1024 .bf16) (wtile q m s) (constant S1024x256 .f32 0x00000000#32)

theorem run_at (a : Vec Ideal S1024x1024 .bf16) (q m : Vec Ideal S256x1024 .i32) (s : Vec Ideal S256x16 .f32) (p : Fin 1024) (r : Fin 256) :
    run a q m s (ix2 p r) = ∑ k : Fin 1024, a (ix2 p k)
      * weight (q (ix2 r k)) (IntOp.cmpi .ne (m (ix2 r k)) 0#32) (s (ix2 r (⟨k.val / 64, by have := k.isLt; omega⟩ : Fin 16))) := by
  unfold run
  rw [product_at, shapeCast_self]
  exact Finset.sum_congr rfl fun k _ => by rw [wtile_at]

/-- The whole body's stored value from the sixteen pieces it loads and the bias row. -/
def stored (a0 a1 a2 a3 : Vec Ideal S1024x1024 .bf16) (q0 m0 q1 m1 q2 m2 q3 m3 : Vec Ideal S256x1024 .i32)
    (s0 s1 s2 s3 : Vec Ideal S256x16 .f32) (b : Vec Ideal S1x256 .f32) : FVec Ideal S1024x256 .f32 :=
  addf (addf (addf (addf (addf (broadcast S1024x256 (Scalar.ofBits .f32 0x00000000#32)) (run a0 q0 m0 s0)) (run a1 q1 m1 s1)) (run a2 q2 m2 s2))
    (run a3 q3 m3 s3)) (broadcastTo S1024x256 (shapeCast S1x256 b shapeCasts_S1x256_S1x256) broadcasts_S1x256_S1024x256)

/-- The printed payloads compose to that value. -/
theorem pay_eq (a0 a1 a2 a3 : Vec Ideal S1024x1024 .bf16) (q0 m0 q1 m1 q2 m2 q3 m3 : Vec Ideal S256x1024 .i32)
    (s0 s1 s2 s3 : Vec Ideal S256x16 .f32) (b : Vec Ideal S1x256 .f32) :
    k0_pay1 (k0_pay7 (k0_pay2 a0 q0 m0 s0) (k0_pay3 a1) (k0_pay4 q1) (k0_pay5 m1) (k0_pay6 s1) a2 q2 m2 s2) (k0_pay8 a3) q3 m3 s3 b
      = stored a0 a1 a2 a3 q0 m0 q1 m1 q2 m2 q3 m3 s0 s1 s2 s3 b := rfl

/-- The stored value at entry (p, r). -/
theorem stored_at (a0 a1 a2 a3 : Vec Ideal S1024x1024 .bf16) (q0 m0 q1 m1 q2 m2 q3 m3 : Vec Ideal S256x1024 .i32)
    (s0 s1 s2 s3 : Vec Ideal S256x16 .f32) (b : Vec Ideal S1x256 .f32) (p : Fin 1024) (r : Fin 256) :
    stored a0 a1 a2 a3 q0 m0 q1 m1 q2 m2 q3 m3 s0 s1 s2 s3 b (ix2 p r)
      = ((((0 + run a0 q0 m0 s0 (ix2 p r)) + run a1 q1 m1 s1 (ix2 p r)) + run a2 q2 m2 s2 (ix2 p r)) + run a3 q3 m3 s3 (ix2 p r))
        + b (ix2 (0 : Fin 1) r) := by
  unfold stored
  show ((((Ideal.ofBits .f32 0x00000000#32 + _) + _) + _) + _) + broadcastTo S1024x256 (shapeCast S1x256 b shapeCasts_S1x256_S1x256) broadcasts_S1x256_S1024x256 (ix2 p r) = _
  rw [Ideal.ofBits_zero_f32, broadcastTo_1b_ab_apply, shapeCast_self]

end Cert.KernelIdeal.Tile

end
-- ==== Proof.SumRuns.lean ====
/-
  A sum of 4096 terms, taken as four runs of 1024 consecutive terms added one after another onto zero, is the
  sum taken in one piece: addition in a commutative monoid does not care how a finite sum is cut.
-/
import Mathlib.Algebra.BigOperators.Fin

open scoped BigOperators

namespace Cert.Dequant

/-- A sum over `a + b` terms is the sum of the first `a` plus the sum of the last `b`. -/
theorem sum_add_run {M : Type*} [AddCommMonoid M] (a b : ℕ) (f : Fin (a + b) → M) :
    ∑ k, f k = ∑ k : Fin a, f ⟨k.val, Nat.lt_add_right b k.isLt⟩ + ∑ k : Fin b, f ⟨a + k.val, Nat.add_lt_add_left k.isLt a⟩ :=
  Fin.sum_univ_add f

/-- Four runs of 1024 terms, added left to right onto zero, make the sum of all 4096. -/
theorem sum_four_runs {M : Type*} [AddCommMonoid M] (f : Fin 4096 → M) :
    (((0 + ∑ k : Fin 1024, f ⟨k.val, by have := k.isLt; omega⟩) + ∑ k : Fin 1024, f ⟨1024 + k.val, by have := k.isLt; omega⟩)
        + ∑ k : Fin 1024, f ⟨2048 + k.val, by have := k.isLt; omega⟩) + ∑ k : Fin 1024, f ⟨3072 + k.val, by have := k.isLt; omega⟩
      = ∑ k : Fin 4096, f k := by
  rw [zero_add]
  have h3 := sum_add_run 3072 1024 f
  have h2 := sum_add_run 2048 1024 (fun k : Fin 3072 => f ⟨k.val, by have := k.isLt; omega⟩)
  have h1 := sum_add_run 1024 1024 (fun k : Fin 2048 => f ⟨k.val, by have := k.isLt; omega⟩)
  exact ((congrArg (· + _) ((congrArg (· + _) h1.symm).trans h2.symm)).trans h3.symm)

end Cert.Dequant
-- ==== Proof.TileValue.lean ====
/-
  One grid point's output tile from the blocks the point is given.

  The body loads four [1024, 1024] column runs of its [1024, 4096] block of `x`, the matching runs of its
  [256, 4096] blocks of codes and sparsity words, the matching 16-column runs of its [256, 64] block of scales, and
  its [1, 256] block of the bias. Its one store covers the [1024, 256] output tile; entry (p, r) of it is the sum
  over all 4096 features k of `x (p, k)` times the weight of code (r, k), plus the bias at `r` — the four runs' sums
  being the one sum cut in four.
-/
import proofs.«137826_j5858335392490_1_alg».proof.Proof.Gen.KernelIdeal.Frame
import proofs.«137826_j5858335392490_1_alg».proof.Proof.Payload
import proofs.«137826_j5858335392490_1_alg».proof.Proof.SumRuns

noncomputable section

open scoped BigOperators

namespace Cert.KernelIdeal.Tile

open Cert.KernelIdeal Cert.KernelIdeal.Gen Idealize.ShloMosaic Idealize.ShloMosaic.ValueIdx Cert.Dequant

theorem zero_offsets : (![0, 0] : Fin 2 → Nat) = fun _ => 0 := funext fun a => by fin_cases a <;> rfl

/-- A load of 1024 columns from column `off` of an [n, 4096] block reads, at (p, k), the block at (p, off + k). -/
theorem ld_cols {n : Nat} {e : EltTy} (X : (⟨2, ![n, 4096]⟩ : Shape).Idx → Elt Ideal e) (off : Nat)
    (inb : ∀ a, (![0, off] : Fin 2 → Nat) a + (⟨2, ![n, 1024]⟩ : Shape).size a ≤ (⟨2, ![n, 4096]⟩ : Shape).size a)
    (p : Fin n) (k : Fin 1024) (h : off + k.val < 4096) :
    View.ld X (Rect.unit (s := ⟨2, ![n, 4096]⟩) ![0, off] (⟨2, ![n, 1024]⟩ : Shape).size inb) (ix2 p k)
      = X (ix2 p (⟨off + k.val, h⟩ : Fin 4096)) := by
  show X _ = X _
  refine congrArg X (funext fun a => Fin.ext ?_)
  match a with
  | ⟨0, _⟩ => show 0 + 1 * p.val = p.val; omega
  | ⟨1, _⟩ => show off + 1 * k.val = off + k.val; omega

/-- A load of 16 scale columns from column `off / 64` of the [256, 64] block reads, at (r, k / 64), the block's scale of
    feature `off + k`, for `off` a multiple of 64. -/
theorem ld_scales (X : (⟨2, ![256, 64]⟩ : Shape).Idx → Elt Ideal .f32) (off : Nat)
    (inb : ∀ a, (![0, off / 64] : Fin 2 → Nat) a + (⟨2, ![256, 16]⟩ : Shape).size a ≤ (⟨2, ![256, 64]⟩ : Shape).size a)
    (r : Fin 256) (k : Fin 1024) (hoff : off % 64 = 0) (h : off + k.val < 4096) :
    View.ld X (Rect.unit (s := ⟨2, ![256, 64]⟩) ![0, off / 64] (⟨2, ![256, 16]⟩ : Shape).size inb)
        (ix2 r (⟨k.val / 64, by have := k.isLt; omega⟩ : Fin 16))
      = X (ix2 r (⟨(off + k.val) / 64, by omega⟩ : Fin 64)) := by
  show X _ = X _
  refine congrArg X (funext fun a => Fin.ext ?_)
  match a with
  | ⟨0, _⟩ => show 0 + 1 * r.val = r.val; omega
  | ⟨1, _⟩ => show off / 64 + 1 * (k.val / 64) = (off + k.val) / 64; omega

/-- One run's product at (p, r), read off the staged blocks: the run's 1024 features start at `off`. -/
theorem run_cols (x0 : Vec Ideal S1024x4096 .bf16) (x1 x2 : Vec Ideal S256x4096 .i32) (x3 : Vec Ideal S256x64 .f32) (off : Nat)
    (inbx : ∀ a, (![0, off] : Fin 2 → Nat) a + S1024x1024.size a ≤ S1024x4096.size a)
    (inbq : ∀ a, (![0, off] : Fin 2 → Nat) a + S256x1024.size a ≤ S256x4096.size a)
    (inbs : ∀ a, (![0, off / 64] : Fin 2 → Nat) a + S256x16.size a ≤ S256x64.size a)
    (hoff : off % 64 = 0) (hle : off + 1024 ≤ 4096) (p : Fin 1024) (r : Fin 256) :
    run (View.ld x0 (Rect.unit (s := S1024x4096) ![0, off] S1024x1024.size inbx))
        (View.ld x1 (Rect.unit (s := S256x4096) ![0, off] S256x1024.size inbq))
        (View.ld x2 (Rect.unit (s := S256x4096) ![0, off] S256x1024.size inbq))
        (View.ld x3 (Rect.unit (s := S256x64) ![0, off / 64] S256x16.size inbs)) (ix2 p r)
      = ∑ k : Fin 1024, x0 (ix2 p (⟨off + k.val, by have := k.isLt; omega⟩ : Fin 4096))
          * weight (x1 (ix2 r (⟨off + k.val, by have := k.isLt; omega⟩ : Fin 4096)))
              (IntOp.cmpi .ne (x2 (ix2 r (⟨off + k.val, by have := k.isLt; omega⟩ : Fin 4096))) 0#32)
              (x3 (ix2 r (⟨(off + k.val) / 64, by have := k.isLt; omega⟩ : Fin 64))) := by
  rw [run_at]
  refine Finset.sum_congr rfl fun k _ => ?_
  have hk := k.isLt
  rw [ld_cols x0 off inbx p k (by omega), ld_cols x1 off inbq r k (by omega), ld_cols x2 off inbq r k (by omega),
    ld_scales x3 off inbs r k hoff (by omega)]

/-- THE TILE AT (p, r): the sum over all 4096 features of `x (p, k)` times the weight of code (r, k) — its sparsity word
    compared with zero, its scale the row's scale number `k / 64` —, plus the bias at `r`. -/
theorem tile_at (x0 : Vec Ideal S1024x4096 .bf16) (x1 x2 : Vec Ideal S256x4096 .i32) (x3 : Vec Ideal S256x64 .f32)
    (x4 : Vec Ideal S1x256 .f32) (p : Fin 1024) (r : Fin 256) :
    out0_5 x0 x1 x2 x3 x4 (ix2 p r)
      = (∑ k : Fin 4096, x0 (ix2 p k) * weight (x1 (ix2 r k)) (IntOp.cmpi .ne (x2 (ix2 r k)) 0#32)
            (x3 (ix2 r (⟨k.val / 64, by have := k.isLt; omega⟩ : Fin 64))))
        + x4 (ix2 (0 : Fin 1) r) := by
  have e0 : run (View.ld x0 r0_0) (View.ld x1 r0_1) (View.ld x2 r0_1) (View.ld x3 r0_2) (ix2 p r)
      = ∑ k : Fin 1024, x0 (ix2 p (⟨k.val, by have := k.isLt; omega⟩ : Fin 4096))
          * weight (x1 (ix2 r (⟨k.val, by have := k.isLt; omega⟩ : Fin 4096)))
              (IntOp.cmpi .ne (x2 (ix2 r (⟨k.val, by have := k.isLt; omega⟩ : Fin 4096))) 0#32)
              (x3 (ix2 r (⟨k.val / 64, by have := k.isLt; omega⟩ : Fin 64))) :=
    (run_cols x0 x1 x2 x3 0 inb_S1024x4096_S1024x1024_0_0 inb_S256x4096_S256x1024_0_0 inb_S256x64_S256x16_0_0 (by decide) (by decide) p r).trans
      (Finset.sum_congr rfl fun k _ => by simp only [Nat.zero_add])
  have e1 : run (View.ld x0 r0_3) (View.ld x1 r0_4) (View.ld x2 r0_4) (View.ld x3 r0_5) (ix2 p r) = _ :=
    run_cols x0 x1 x2 x3 1024 inb_S1024x4096_S1024x1024_0_1024 inb_S256x4096_S256x1024_0_1024 inb_S256x64_S256x16_0_16 (by decide) (by decide) p r
  have e2 : run (View.ld x0 r0_6) (View.ld x1 r0_7) (View.ld x2 r0_7) (View.ld x3 r0_8) (ix2 p r) = _ :=
    run_cols x0 x1 x2 x3 2048 inb_S1024x4096_S1024x1024_0_2048 inb_S256x4096_S256x1024_0_2048 inb_S256x64_S256x16_0_32 (by decide) (by decide) p r
  have e3 : run (View.ld x0 r0_9) (View.ld x1 r0_10) (View.ld x2 r0_10) (View.ld x3 r0_11) (ix2 p r) = _ :=
    run_cols x0 x1 x2 x3 3072 inb_S1024x4096_S1024x1024_0_3072 inb_S256x4096_S256x1024_0_3072 inb_S256x64_S256x16_0_48 (by decide) (by decide) p r
  unfold out0_5
  rw [View.canon_unit_zero zero_offsets, pay_eq, stored_at, e0, e1, e2, e3, View.ld_unit_zero (S := S1x256) zero_offsets]
  exact congrArg (· + x4 (ix2 (0 : Fin 1) r)) (sum_four_runs fun k : Fin 4096 =>
    x0 (ix2 p k) * weight (x1 (ix2 r k)) (IntOp.cmpi .ne (x2 (ix2 r k)) 0#32)
      (x3 (ix2 r (⟨k.val / 64, by have := k.isLt; omega⟩ : Fin 64))))

end Cert.KernelIdeal.Tile

end
-- ==== Proof.Entry.lean ====
/-
  The arrays as the kernel's region finds them, and each window's block at a grid point, read back to the arguments.

  Before the region the host lays the arguments out as matrices: `x` as [4096, 4096] (row `a * 2048 + r` is batch `a`,
  row `r`; the change of format is the identity on the extended reals), the codes and the sparsity bits as
  [11008, 4096] (entry (o, k) is code number `o * 4096 + k`, the bit widened to a word), the scales as [11008, 64]
  (entry (o, g) is group `o * 64 + g`) and the bias as one row. A window's block at a point sits in its array at the
  block's index times the block's extent on each axis.
-/
import proofs.«137826_j5858335392490_1_alg».proof.Proof.Gen.KernelIdeal.Frame
import proofs.«137826_j5858335392490_1_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Entry

open Cert.KernelIdeal Cert.KernelIdeal.Gen Idealize.ShloMosaic Idealize.ShloMosaic.TcCoe Idealize.SL.Sem
open Idealize.ShloMosaic.ValueIdx Cert.Dequant

variable (m : (ℓ : Loc nD τ sig) → Buf (Elt Ideal) ℓ)

/-! ## The host's lines before the region -/

theorem x_entry (c : Dev nD) : (V m c main_call0_v1 : S4096x4096.Idx → EReal)
    = truncf .bf16 (shapeCast S4096x4096 (m ((c : Thread nD τ).loc main_arg0) : S2x2048x4096.Idx → EReal) shapeCasts_S2x2048x4096_S4096x4096 : FVec Ideal S4096x4096 .f32) bitsLt_bf16_f32 := by
  show StableHlo.after hostOps0 (fun b => m (c, b)) (Proc.devRef .tc main_call0_v1) = _
  after_results
  rfl

theorem q_entry (c : Dev nD) : (V m c main_call0_v2 : S11008x4096.Idx → BitVec 32)
    = shapeCast S11008x4096 (m ((c : Thread nD τ).loc main_arg1) : S704512x64.Idx → BitVec 32) shapeCasts_S704512x64_S11008x4096 := by
  show StableHlo.after hostOps0 (fun b => m (c, b)) (Proc.devRef .tc main_call0_v2) = _
  after_results
  rfl

theorem m_entry (c : Dev nD) : (V m c main_call0_v6 : S11008x4096.Idx → BitVec 32)
    = extui 32 (shapeCast S11008x4096 (m ((c : Thread nD τ).loc main_arg3) : S704512x64.Idx → BitVec 1) shapeCasts_S704512x64_S11008x4096 : IVec S11008x4096 1) natLt_1_32 := by
  show StableHlo.after hostOps0 (fun b => m (c, b)) (Proc.devRef .tc main_call0_v6) = _
  after_results
  rfl

theorem s_entry (c : Dev nD) : (V m c main_call0_v4 : S11008x64.Idx → EReal)
    = shapeCast S11008x64 (m ((c : Thread nD τ).loc main_arg2) : S704512.Idx → EReal) shapeCasts_S704512_S11008x64 := by
  show StableHlo.after hostOps0 (fun b => m (c, b)) (Proc.devRef .tc main_call0_v4) = _
  after_results
  rfl

theorem b_entry (c : Dev nD) : (V m c main_call0_v5 : S1x11008.Idx → EReal)
    = shapeCast S1x11008 (m ((c : Thread nD τ).loc main_arg4) : S11008.Idx → EReal) shapeCasts_S11008_S1x11008 := by
  show StableHlo.after hostOps0 (fun b => m (c, b)) (Proc.devRef .tc main_call0_v5) = _
  after_results
  rfl

/-! ## Those arrays at an index -/

/-- Row `R` of the [4096, 4096] matrix is batch `a`, row `r` of `x` when `R = a * 2048 + r`. -/
theorem x_at (c : Dev nD) (R k : Fin 4096) (a : Fin 2) (r : Fin 2048) (h : a.val * 2048 + r.val = R.val) :
    (V m c main_call0_v1 : S4096x4096.Idx → EReal) (ix2 R k) = (m ((c : Thread nD τ).loc main_arg0) : S2x2048x4096.Idx → EReal) (ix3 a r k) := by
  rw [x_entry]
  refine shapeCast_apply _ shapeCasts_S2x2048x4096_S4096x4096 (ix2 R k) (ix3 a r k) ?_
  rw [Shape.rowMajor_val_three, Shape.rowMajor_val_two]
  show (a.val * 2048 + r.val) * 4096 + k.val = R.val * 4096 + k.val
  rw [h]

/-- Entry (o, k) of the code matrix is the code of its group and lane. -/
theorem q_at (c : Dev nD) (o : Fin 11008) (k : Fin 4096) :
    (V m c main_call0_v2 : S11008x4096.Idx → BitVec 32) (ix2 o k)
      = (m ((c : Thread nD τ).loc main_arg1) : S704512x64.Idx → BitVec 32) (ix2 (grp o k) (lane o k)) := by
  rw [q_entry]
  refine shapeCast_apply _ shapeCasts_S704512x64_S11008x4096 (ix2 o k) (ix2 (grp o k) (lane o k)) ?_
  rw [Shape.rowMajor_val_two, Shape.rowMajor_val_two]
  show (o.val * 4096 + k.val) / 64 * 64 + (o.val * 4096 + k.val) % 64 = o.val * 4096 + k.val
  omega

/-- Entry (o, k) of the sparsity matrix is the bit of its group and lane, widened to a word. -/
theorem m_at (c : Dev nD) (o : Fin 11008) (k : Fin 4096) :
    (V m c main_call0_v6 : S11008x4096.Idx → BitVec 32) (ix2 o k)
      = ((m ((c : Thread nD τ).loc main_arg3) : S704512x64.Idx → BitVec 1) (ix2 (grp o k) (lane o k))).setWidth 32 := by
  rw [m_entry]
  show (shapeCast S11008x4096 (m ((c : Thread nD τ).loc main_arg3) : S704512x64.Idx → BitVec 1) shapeCasts_S704512x64_S11008x4096 (ix2 o k)).setWidth 32 = _
  refine congrArg (BitVec.setWidth 32) (shapeCast_apply _ shapeCasts_S704512x64_S11008x4096 (ix2 o k) (ix2 (grp o k) (lane o k)) ?_)
  rw [Shape.rowMajor_val_two, Shape.rowMajor_val_two]
  show (o.val * 4096 + k.val) / 64 * 64 + (o.val * 4096 + k.val) % 64 = o.val * 4096 + k.val
  omega

/-- Entry (o, g) of the scale matrix is the scale of group `o * 64 + g`: for `g = k / 64`, the group of code (o, k). -/
theorem s_at (c : Dev nD) (o : Fin 11008) (k : Fin 4096) :
    (V m c main_call0_v4 : S11008x64.Idx → EReal) (ix2 o (⟨k.val / 64, by have := k.isLt; omega⟩ : Fin 64))
      = (m ((c : Thread nD τ).loc main_arg2) : S704512.Idx → EReal) (ix1 (grp o k)) := by
  rw [s_entry]
  refine shapeCast_apply _ shapeCasts_S704512_S11008x64 _ (ix1 (grp o k)) ?_
  rw [Shape.rowMajor_val_one, Shape.rowMajor_val_two]
  show (o.val * 4096 + k.val) / 64 = o.val * 64 + k.val / 64
  omega

/-- The bias row at `o` is the bias at `o`. -/
theorem b_at (c : Dev nD) (o : Fin 11008) :
    (V m c main_call0_v5 : S1x11008.Idx → EReal) (ix2 (0 : Fin 1) o) = (m ((c : Thread nD τ).loc main_arg4) : S11008.Idx → EReal) (ix1 o) := by
  rw [b_entry]
  exact shapeCast_a_1a_apply _ shapeCasts_S11008_S1x11008 0 o

end Cert.KernelIdeal.Entry

end
-- ==== Proof.Region.lean ====
/-
  The kernel's run read as a value: the [4096, 11008] array the region leaves, and the program's result.

  Grid point `t` works on row block `I` (1024 rows) and feature block `J` (256 features) of the output: its block of
  `x` is row block `I`, its blocks of codes, sparsity words and scales are row block `J` of those matrices, its bias
  block is column block `J` of the bias row. So what it writes back is block (I, J) of one array: at (R, o), the
  layer's output for batch `R / 2048`, row `R % 2048`, feature `o`. The 4 × 43 blocks tile the array, so the array
  ends as that function; the host's last line lays it out as [2, 2048, 11008].
-/
import proofs.«137826_j5858335392490_1_alg».proof.Proof.Gen.KernelIdeal.Frame
import proofs.«137826_j5858335392490_1_alg».proof.Proof.TileValue
import proofs.«137826_j5858335392490_1_alg».proof.Proof.Entry

noncomputable section

open scoped BigOperators

namespace Cert.KernelIdeal.Layer

open Cert.KernelIdeal Cert.KernelIdeal.Gen Idealize.ShloMosaic Idealize.ShloMosaic.TcCoe Idealize.SL.Sem
open Idealize.ShloMosaic.ValueIdx Cert.Dequant Cert.KernelIdeal.Tile Cert.KernelIdeal.Entry
open Idealize.ShloMosaic.Pipeline (Dat)

variable (m : (ℓ : Loc nD τ sig) → Buf (Elt Ideal) ℓ) (ρ : Dev nD → PrngReg)

/-- A sparsity bit widened to a word is not zero exactly when the bit is set. -/
theorem bit_word (b : BitVec 1) : IntOp.cmpi .ne (b.setWidth 32) 0#32 = b := by
  rcases BitVec.eq_zero_or_eq_one b with h | h <;> subst h <;> decide

/-- The layer's output over the five arguments as launched, at row `R` of the [4096, 11008] array and feature `o`. -/
def rowOut (c : Dev nD) (R : Fin 4096) (o : Fin 11008) : EReal :=
  outAt (m ((c : Thread nD τ).loc main_arg0)) (m ((c : Thread nD τ).loc main_arg1)) (m ((c : Thread nD τ).loc main_arg2))
    (m ((c : Thread nD τ).loc main_arg3)) (m ((c : Thread nD τ).loc main_arg4))
    (⟨R.val / 2048, by have := R.isLt; omega⟩ : Fin 2) (⟨R.val % 2048, Nat.mod_lt _ (by decide)⟩ : Fin 2048) o

/-- The array the region leaves. -/
def regionOut (c : Dev nD) : S4096x11008.Idx → EReal := fun j => rowOut m c (j 0) (j 1)

/-! ## Where each window's block sits -/

/-- The index maps, decided over the 172 grid points: the input windows follow the output's row block or feature block. -/
theorem idx_facts : ∀ t : Fin cfg0.N,
    win0_0.index t (0 : Fin 2) = win0_5.index t (0 : Fin 2) ∧ win0_0.index t (1 : Fin 2) = 0
    ∧ win0_1.index t (0 : Fin 2) = win0_5.index t (1 : Fin 2) ∧ win0_1.index t (1 : Fin 2) = 0
    ∧ win0_2.index t (0 : Fin 2) = win0_5.index t (1 : Fin 2) ∧ win0_2.index t (1 : Fin 2) = 0
    ∧ win0_3.index t (0 : Fin 2) = win0_5.index t (1 : Fin 2) ∧ win0_3.index t (1 : Fin 2) = 0
    ∧ win0_4.index t (0 : Fin 2) = 0 ∧ win0_4.index t (1 : Fin 2) = win0_5.index t (1 : Fin 2)
    ∧ win0_5.index t (0 : Fin 2) ≤ 3 ∧ win0_5.index t (1 : Fin 2) ≤ 42 :=
  (by decide +kernel : ∀ t : Fin grid0.N, _)

/-- Every block of the output array is some point's. -/
theorem idx_onto : ∀ (q0 : Fin 4) (q1 : Fin 43), ∃ t : Fin cfg0.N, win0_5.index t = ![q0.val, q1.val] :=
  (by decide +kernel : ∀ (q0 : Fin 4) (q1 : Fin 43), ∃ t : Fin grid0.N, win0_5.index t = ![q0.val, q1.val])

/-- The block of `x` at a point, at (p, k): batch `a`, row `r` of `x` when the block's row is `a * 2048 + r`. -/
theorem x_blk (c : Dev nD) (t : Fin cfg0.N) (p : Fin 1024) (k : Fin 4096) (a : Fin 2) (r : Fin 2048)
    (h0 : a.val * 2048 + r.val = win0_0.index t (0 : Fin 2) * 1024 + p.val) (h1 : win0_0.index t (1 : Fin 2) = 0) :
    (iblk m c 0 t : Vec Ideal S1024x4096 .bf16) (ix2 p k)
      = (m ((c : Thread nD τ).loc main_arg0) : S2x2048x4096.Idx → EReal) (ix3 a r k) := by
  have ha := a.isLt; have hr := r.isLt
  unfold iblk
  rw [View.read_apply]
  show V m c main_call0_v1 (((cfg0.win 0).blk t).view.emb (ix2 p k)) = _
  have e : ((cfg0.win 0).blk t).view.emb (ix2 p k)
      = ix2 (⟨win0_0.index t (0 : Fin 2) * 1024 + p.val, by omega⟩ : Fin 4096) k := by
    funext ax; apply Fin.ext
    match ax with
    | ⟨0, _⟩ => show win0_0.index t (0 : Fin 2) * 1024 + 1 * p.val = win0_0.index t (0 : Fin 2) * 1024 + p.val; omega
    | ⟨1, _⟩ => show win0_0.index t (1 : Fin 2) * 4096 + 1 * k.val = k.val; omega
  exact (congrArg (V m c main_call0_v1) e).trans (x_at m c _ k a r h0)

/-- The block of codes at a point, at (r, k): the code of feature `o`'s entry `k` when the block's row is `o`. -/
theorem q_blk (c : Dev nD) (t : Fin cfg0.N) (r : Fin 256) (k : Fin 4096) (o : Fin 11008)
    (h0 : o.val = win0_1.index t (0 : Fin 2) * 256 + r.val) (h1 : win0_1.index t (1 : Fin 2) = 0) :
    (iblk m c 1 t : Vec Ideal S256x4096 .i32) (ix2 r k)
      = (m ((c : Thread nD τ).loc main_arg1) : S704512x64.Idx → BitVec 32) (ix2 (grp o k) (lane o k)) := by
  unfold iblk
  rw [View.read_apply]
  show V m c main_call0_v2 (((cfg0.win 1).blk t).view.emb (ix2 r k)) = _
  have e : ((cfg0.win 1).blk t).view.emb (ix2 r k) = ix2 o k := by
    funext ax; apply Fin.ext
    match ax with
    | ⟨0, _⟩ => show win0_1.index t (0 : Fin 2) * 256 + 1 * r.val = o.val; omega
    | ⟨1, _⟩ => show win0_1.index t (1 : Fin 2) * 4096 + 1 * k.val = k.val; omega
  exact (congrArg (V m c main_call0_v2) e).trans (q_at m c o k)

/-- The block of sparsity words at a point, at (r, k): the bit of that code, widened. -/
theorem m_blk (c : Dev nD) (t : Fin cfg0.N) (r : Fin 256) (k : Fin 4096) (o : Fin 11008)
    (h0 : o.val = win0_2.index t (0 : Fin 2) * 256 + r.val) (h1 : win0_2.index t (1 : Fin 2) = 0) :
    (iblk m c 2 t : Vec Ideal S256x4096 .i32) (ix2 r k)
      = ((m ((c : Thread nD τ).loc main_arg3) : S704512x64.Idx → BitVec 1) (ix2 (grp o k) (lane o k))).setWidth 32 := by
  unfold iblk
  rw [View.read_apply]
  show V m c main_call0_v6 (((cfg0.win 2).blk t).view.emb (ix2 r k)) = _
  have e : ((cfg0.win 2).blk t).view.emb (ix2 r k) = ix2 o k := by
    funext ax; apply Fin.ext
    match ax with
    | ⟨0, _⟩ => show win0_2.index t (0 : Fin 2) * 256 + 1 * r.val = o.val; omega
    | ⟨1, _⟩ => show win0_2.index t (1 : Fin 2) * 4096 + 1 * k.val = k.val; omega
  exact (congrArg (V m c main_call0_v6) e).trans (m_at m c o k)

/-- The block of scales at a point, at (r, k / 64): the scale of that code's group. -/
theorem s_blk (c : Dev nD) (t : Fin cfg0.N) (r : Fin 256) (k : Fin 4096) (o : Fin 11008)
    (h0 : o.val = win0_3.index t (0 : Fin 2) * 256 + r.val) (h1 : win0_3.index t (1 : Fin 2) = 0) :
    (iblk m c 3 t : Vec Ideal S256x64 .f32) (ix2 r (⟨k.val / 64, by have := k.isLt; omega⟩ : Fin 64))
      = (m ((c : Thread nD τ).loc main_arg2) : S704512.Idx → EReal) (ix1 (grp o k)) := by
  unfold iblk
  rw [View.read_apply]
  show V m c main_call0_v4 (((cfg0.win 3).blk t).view.emb (ix2 r (⟨k.val / 64, by have := k.isLt; omega⟩ : Fin 64))) = _
  have e : ((cfg0.win 3).blk t).view.emb (ix2 r (⟨k.val / 64, by have := k.isLt; omega⟩ : Fin 64))
      = ix2 o (⟨k.val / 64, by have := k.isLt; omega⟩ : Fin 64) := by
    funext ax; apply Fin.ext
    match ax with
    | ⟨0, _⟩ => show win0_3.index t (0 : Fin 2) * 256 + 1 * r.val = o.val; omega
    | ⟨1, _⟩ => show win0_3.index t (1 : Fin 2) * 64 + 1 * (k.val / 64) = k.val / 64; omega
  exact (congrArg (V m c main_call0_v4) e).trans (s_at m c o k)

/-- The block of the bias row at a point, at (0, r): the bias of feature `o` when the block's column is `o`. -/
theorem b_blk (c : Dev nD) (t : Fin cfg0.N) (r : Fin 256) (o : Fin 11008)
    (h0 : win0_4.index t (0 : Fin 2) = 0) (h1 : o.val = win0_4.index t (1 : Fin 2) * 256 + r.val) :
    (iblk m c 4 t : Vec Ideal S1x256 .f32) (ix2 (0 : Fin 1) r)
      = (m ((c : Thread nD τ).loc main_arg4) : S11008.Idx → EReal) (ix1 o) := by
  unfold iblk
  rw [View.read_apply]
  show V m c main_call0_v5 (((cfg0.win 4).blk t).view.emb (ix2 (0 : Fin 1) r)) = _
  have e : ((cfg0.win 4).blk t).view.emb (ix2 (0 : Fin 1) r) = ix2 (0 : Fin 1) o := by
    funext ax; apply Fin.ext
    match ax with
    | ⟨0, _⟩ => show win0_4.index t (0 : Fin 2) * 1 + 1 * 0 = 0; omega
    | ⟨1, _⟩ => show win0_4.index t (1 : Fin 2) * 256 + 1 * r.val = o.val; omega
  exact (congrArg (V m c main_call0_v5) e).trans (b_at m c o)

/-! ## What a point writes back, and the array after the run -/

/-- The tile a point computes from its blocks is the layer's output at the tile's place in the array: row `R`, feature `o`,
    when the blocks sit where the point's index maps put them. -/
theorem tile_eq (c : Dev nD) (t : Fin cfg0.N) (p : Fin 1024) (r : Fin 256) (R : Fin 4096) (o : Fin 11008)
    (hx : R.val = win0_0.index t (0 : Fin 2) * 1024 + p.val) (hx1 : win0_0.index t (1 : Fin 2) = 0)
    (hq : o.val = win0_1.index t (0 : Fin 2) * 256 + r.val) (hq1 : win0_1.index t (1 : Fin 2) = 0)
    (hm : o.val = win0_2.index t (0 : Fin 2) * 256 + r.val) (hm1 : win0_2.index t (1 : Fin 2) = 0)
    (hs : o.val = win0_3.index t (0 : Fin 2) * 256 + r.val) (hs1 : win0_3.index t (1 : Fin 2) = 0)
    (hb0 : win0_4.index t (0 : Fin 2) = 0) (hb : o.val = win0_4.index t (1 : Fin 2) * 256 + r.val)
    (x0 : Vec Ideal S1024x4096 .bf16) (x1 x2 : Vec Ideal S256x4096 .i32) (x3 : Vec Ideal S256x64 .f32) (x4 : Vec Ideal S1x256 .f32)
    (e0 : x0 = iblk m c 0 t) (e1 : x1 = iblk m c 1 t) (e2 : x2 = iblk m c 2 t) (e3 : x3 = iblk m c 3 t) (e4 : x4 = iblk m c 4 t) :
    (∑ k : Fin 4096, x0 (ix2 p k) * weight (x1 (ix2 r k)) (IntOp.cmpi .ne (x2 (ix2 r k)) 0#32)
          (x3 (ix2 r (⟨k.val / 64, by have := k.isLt; omega⟩ : Fin 64))))
      + x4 (ix2 (0 : Fin 1) r)
      = rowOut m c R o := by
  have hR := R.isLt
  subst e0 e1 e2 e3 e4
  unfold rowOut outAt
  refine congrArg₂ (· + ·) (Finset.sum_congr rfl fun k _ => ?_) (b_blk m c t r o hb0 hb)
  rw [x_blk m c t p k (⟨R.val / 2048, by omega⟩ : Fin 2) (⟨R.val % 2048, Nat.mod_lt _ (by decide)⟩ : Fin 2048)
      (by show R.val / 2048 * 2048 + R.val % 2048 = _; omega) hx1,
    q_blk m c t r k o hq hq1, m_blk m c t r k o hm hm1, s_blk m c t r k o hs hs1, bit_word]
  rfl

/-- WHAT POINT `t` WRITES BACK is block `t` of `regionOut`. -/
theorem flushed_eq (c : Dev nD) (t : Fin cfg0.N) :
    (dats m 0 c).flushed 5 t = ((cfg0.win 5).blk t).view.read (Elt Ideal) (regionOut m c) := by
  show (cfg0.win 5).cut (grid0.coords t) ((dats m 0 c).after 5 t) = _
  rw [after0_5]
  obtain ⟨e00, e01, e10, e11, e20, e21, e30, e31, e40, e41, b0, b1⟩ := idx_facts t
  refine funext fun (j : S1024x256.Idx) => ?_
  obtain ⟨p, r, rfl⟩ : ∃ (p : Fin 1024) (r : Fin 256), j = ix2 p r := ⟨j 0, j 1, eq_ix2 j⟩
  have hp := p.isLt; have hr := r.isLt
  show out0_5 (iblk m c 0 t) (iblk m c 1 t) (iblk m c 2 t) (iblk m c 3 t) (iblk m c 4 t) (ix2 p r)
    = regionOut m c (((cfg0.win 5).blk t).view.emb (ix2 p r))
  have eo : ((cfg0.win 5).blk t).view.emb (ix2 p r)
      = ix2 (⟨win0_5.index t (0 : Fin 2) * 1024 + p.val, by omega⟩ : Fin 4096)
          (⟨win0_5.index t (1 : Fin 2) * 256 + r.val, by omega⟩ : Fin 11008) := by
    funext ax; apply Fin.ext
    match ax with
    | ⟨0, _⟩ => show win0_5.index t (0 : Fin 2) * 1024 + 1 * p.val = win0_5.index t (0 : Fin 2) * 1024 + p.val; omega
    | ⟨1, _⟩ => show win0_5.index t (1 : Fin 2) * 256 + 1 * r.val = win0_5.index t (1 : Fin 2) * 256 + r.val; omega
  refine (tile_at (iblk m c 0 t) (iblk m c 1 t) (iblk m c 2 t) (iblk m c 3 t) (iblk m c 4 t) p r).trans ?_
  refine Eq.trans ?_ (congrArg (regionOut m c) eo).symm
  exact tile_eq m c t p r (⟨win0_5.index t (0 : Fin 2) * 1024 + p.val, by omega⟩ : Fin 4096)
    (⟨win0_5.index t (1 : Fin 2) * 256 + r.val, by omega⟩ : Fin 11008)
    (by show win0_5.index t (0 : Fin 2) * 1024 + p.val = _; omega) e01
    (by show win0_5.index t (1 : Fin 2) * 256 + r.val = _; omega) e11
    (by show win0_5.index t (1 : Fin 2) * 256 + r.val = _; omega) e21
    (by show win0_5.index t (1 : Fin 2) * 256 + r.val = _; omega) e31
    e40 (by show win0_5.index t (1 : Fin 2) * 256 + r.val = _; omega)
    (iblk m c 0 t) (iblk m c 1 t) (iblk m c 2 t) (iblk m c 3 t) (iblk m c 4 t) rfl rfl rfl rfl rfl

/-- An index of the array is in point `t`'s block iff each coordinate is in the block's range on its axis. -/
theorem mem_blk (t : Fin cfg0.N) (i : S4096x11008.Idx) :
    i ∈ ((cfg0.win 5).blk t).view.set ↔ ∀ a : Fin 2, win0_5.index t a * S1024x256.size a ≤ (i a).val
      ∧ (i a).val < win0_5.index t a * S1024x256.size a + S1024x256.size a := by
  show i ∈ ((View.whole main_call0_v7).slice (win0_5.rect t)).set ↔ _
  rw [View.set_slice_whole, Rect.mem_set_unit]
  exact Iff.rfl

/-- The blocks cover the array: (R, o) is in the block of row block `R / 1024`, feature block `o / 256`. -/
theorem cover (i : S4096x11008.Idx) : ∃ t : Fin cfg0.N, (cfg0.win 5).flush t = true ∧ i ∈ ((cfg0.win 5).blk t).view.set := by
  have hi0 : (i 0).val < 4096 := (i 0).isLt
  have hi1 : (i 1).val < 11008 := (i 1).isLt
  obtain ⟨t, ht⟩ := idx_onto ⟨(i 0).val / 1024, by omega⟩ ⟨(i 1).val / 256, by omega⟩
  have q0 : win0_5.index t (0 : Fin 2) = (i 0).val / 1024 := congrFun ht 0
  have q1 : win0_5.index t (1 : Fin 2) = (i 1).val / 256 := congrFun ht 1
  refine ⟨t, flush0_5 t, ?_⟩
  rw [mem_blk]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 256 ≤ (i 1).val ∧ (i 1).val < win0_5.index t (1 : Fin 2) * 256 + 256; omega

/-- THE ARRAY after the run is `regionOut`. -/
theorem final (c : Dev nD) : (dats m 0 c).arrAt 5 cfg0.N = regionOut m c :=
  (dats m 0 c).arrAt_eq_of_cover 5 (regionOut m c) (fun t _ => flushed_eq m c t) cover

end Cert.KernelIdeal.Layer

end
-- ==== Proof.KernelRun.lean ====
/-
  The kernel program's run with its result named: after the region the host lays the [4096, 11008] array out as
  [2, 2048, 11008], row `a * 2048 + r` becoming batch `a`, row `r`; the result is the layer's output of the arguments.
-/
import proofs.«137826_j5858335392490_1_alg».proof.Proof.Region

noncomputable section

namespace Cert.KernelIdeal.Layer

open Cert.KernelIdeal Cert.KernelIdeal.Gen Idealize.ShloMosaic Idealize.ShloMosaic.TcCoe Idealize.SL.Sem
open Idealize.ShloMosaic.ValueIdx Cert.Dequant
open Idealize.ShloMosaic.Pipeline (Dat)

variable (m : (ℓ : Loc nD τ sig) → Buf (Elt Ideal) ℓ) (ρ : Dev nD → PrngReg)

/-- The host's line after the region reshapes the array the region leaves. -/
theorem tail_eq (c : Dev nD) :
    (Pipeline.afterTail₀ cfgs (dats m) 0 (V0 m) [hostOps1] c main_v0 : S2x2048x11008.Idx → EReal)
      = shapeCast S2x2048x11008 (regionOut m c) shapeCasts_S4096x11008_S2x2048x11008 := by
  unfold Pipeline.afterTail₀
  show StableHlo.after hostOps1 _ (Proc.devRef .tc main_v0) = _
  after_results
  have hw : Pipeline.withArrays (cfgs 0).spec c (V0 m c) (fun w => (dats m 0 c).arrAt w (cfgs 0).N) (Proc.devRef .tc main_call0_v7)
      = regionOut m c :=
    (Pipeline.withArrays_arr spec0 launch0.win.arr_inj c _ _ 5).trans (final m c)
  rw [hw]
  rfl

/-- Row `a * 2048 + r` of the region's array is batch `a`, row `r` of the layer's output. -/
theorem rowOut_mk (c : Dev nD) (a : Fin 2) (r : Fin 2048) (o : Fin 11008) (h : a.val * 2048 + r.val < 4096) :
    rowOut m c (⟨a.val * 2048 + r.val, h⟩ : Fin 4096) o
      = outAt (m ((c : Thread nD τ).loc main_arg0)) (m ((c : Thread nD τ).loc main_arg1)) (m ((c : Thread nD τ).loc main_arg2))
          (m ((c : Thread nD τ).loc main_arg3)) (m ((c : Thread nD τ).loc main_arg4)) a r o := by
  have ha := a.isLt; have hr := r.isLt
  have e1 : (⟨(a.val * 2048 + r.val) / 2048, by omega⟩ : Fin 2) = a :=
    Fin.ext (by show (a.val * 2048 + r.val) / 2048 = a.val; omega)
  have e2 : (⟨(a.val * 2048 + r.val) % 2048, Nat.mod_lt _ (by decide)⟩ : Fin 2048) = r :=
    Fin.ext (by show (a.val * 2048 + r.val) % 2048 = r.val; omega)
  show outAt _ _ _ _ _ (⟨(a.val * 2048 + r.val) / 2048, by omega⟩ : Fin 2)
    (⟨(a.val * 2048 + r.val) % 2048, Nat.mod_lt _ (by decide)⟩ : Fin 2048) o = _
  rw [e1, e2]

/-- The reshaped array is the layer's output. -/
theorem out_eq (c : Dev nD) :
    shapeCast S2x2048x11008 (regionOut m c) shapeCasts_S4096x11008_S2x2048x11008
      = out (m ((c : Thread nD τ).loc main_arg0)) (m ((c : Thread nD τ).loc main_arg1)) (m ((c : Thread nD τ).loc main_arg2))
          (m ((c : Thread nD τ).loc main_arg3)) (m ((c : Thread nD τ).loc main_arg4)) := by
  funext i
  obtain ⟨a, r, o, rfl⟩ : ∃ (a : Fin 2) (r : Fin 2048) (o : Fin 11008), i = ix3 a r o := ⟨i 0, i 1, i 2, eq_ix3 i⟩
  have ha := a.isLt; have hr := r.isLt
  refine (shapeCast_apply _ shapeCasts_S4096x11008_S2x2048x11008 (ix3 a r o)
    (ix2 (⟨a.val * 2048 + r.val, by omega⟩ : Fin 4096) o) (by
      rw [Shape.rowMajor_val_two, Shape.rowMajor_val_three]
      rfl)).trans ?_
  exact rowOut_mk m c a r o (by omega)

/-- THE RUN, READ: the kernel program ends with its result at the layer's output of the arguments, the arguments unchanged. -/
theorem run : θ_run defs (onTc (τ := τ) (main (F := Ideal))) ⟨m, fun _ => 0, ρ⟩ fun r => ∀ c : Dev nD,
      r.2.mem ((c : Thread nD τ).loc main_v0)
        = out (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v0 (Pipeline.mem_restRefs_of main_v0 (by decide) (by decide))).trans ((tail_eq m c).trans (out_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Layer

end
-- ==== Proof.lean ====
/-
  A linear layer whose weights are stored quantised: 704512 groups of 64 three-bit codes, a scale per group, a sparsity
  bit per code. The kernel dequantises tile by tile and contracts with `x` in four runs of 1024 input features per grid
  point, over a 4 × 43 grid of [1024, 256] output tiles; the reference dequantises the whole table, reshapes it to
  [11008, 4096] and contracts once. On the extended reals both end with the same array: at (a, r, o) the sum over the
  4096 input features k of `x (a, r, k)` times the weight of code number `o * 4096 + k`, plus `bias o`
  (`Cert.Dequant.out`). The law between the two is that a finite sum may be cut into consecutive runs — addition on
  the extended reals is commutative and associative, so no finiteness of the inputs is used.

  The three frames: the kernel's two are its run at the word level and at the extended reals; the reference's is its run
  with the result dropped. No operation of the kernel was rewritten for the extended reals, so there is nothing to
  preserve beyond the text itself.
-/
import proofs.«137826_j5858335392490_1_alg».proof.Defs
import proofs.«137826_j5858335392490_1_alg».proof.Proof.Gen.Kernel
import proofs.«137826_j5858335392490_1_alg».proof.Proof.Gen.Kernel.Skeleton
import proofs.«137826_j5858335392490_1_alg».proof.Proof.Gen.Kernel.Launch
import proofs.«137826_j5858335392490_1_alg».proof.Proof.Gen.Kernel.Points
import proofs.«137826_j5858335392490_1_alg».proof.Proof.Gen.Kernel.Frame
import proofs.«137826_j5858335392490_1_alg».proof.Proof.Gen.KernelIdeal
import proofs.«137826_j5858335392490_1_alg».proof.Proof.Gen.KernelIdeal.Skeleton
import proofs.«137826_j5858335392490_1_alg».proof.Proof.Gen.KernelIdeal.Launch
import proofs.«137826_j5858335392490_1_alg».proof.Proof.Gen.KernelIdeal.Points
import proofs.«137826_j5858335392490_1_alg».proof.Proof.Gen.KernelIdeal.Frame
import proofs.«137826_j5858335392490_1_alg».proof.Proof.Gen.ReferenceIdeal
import proofs.«137826_j5858335392490_1_alg».proof.Proof.Gen.Pre_finite_inputs
import proofs.«137826_j5858335392490_1_alg».proof.Proof.Gen.ReferenceIdeal.Run
import proofs.«137826_j5858335392490_1_alg».proof.Proof.Gen.ReferenceIdeal.Read
import proofs.«137826_j5858335392490_1_alg».proof.Proof.RefValue
import proofs.«137826_j5858335392490_1_alg».proof.Proof.KernelRun
import Idealize.ShloMosaic.Adequacy
import Idealize.ShloMosaic.Init

noncomputable section

namespace Cert.Proof

open Idealize.ShloMosaic Idealize.ShloMosaic.TcCoe Idealize.SL.Sem

/-- The kernel program at the word level runs and keeps its arguments. -/
theorem frame_kernel : Cert.frame_Kernel := fun m ρ _ => Cert.Kernel.Gen.frame m ρ

/-- The kernel program on the extended reals runs and keeps its arguments. -/
theorem frame_kernelIdeal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the layer's output of their (agreeing) arguments. -/
theorem algebraic : Cert.algebraic_KernelIdeal_ReferenceIdeal := by
  intro m ρ m' ρ' _ hagree
  refine ⟨fun c => Cert.Dequant.out (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4)),
    Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.ref_eq, (hagree c).1, (hagree c).2.1,
    (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
